-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S27x32x32 : Shape := ⟨3, ![27, 32, 32]⟩
abbrev S1x32 : Shape := ⟨2, ![1, 32]⟩
abbrev S27x131072 : Shape := ⟨2, ![27, 131072]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S27x32x32 : S_.BroadcastsInDim S27x32x32 (![] : Fin 0 → Fin S27x32x32.rank)
  reducesTo_S27x32x32_S_d0_1_2 : S27x32x32.ReducesTo [0, 1, 2] S_
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S262144x32 .f32) (main_arg1 : FVec F S27x32x32 .f32) (main_arg2 : FVec F S1x32 .f32) (main_arg3 : IVec S27x131072 32) (main_arg4 : IVec S27x131072 32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S27x32x32 .f32 := Host.absf main_arg1
  let main_cst_0 : FVec F S_ .f32 := constant S_ .f32 0x7F800000#32
  let main_v5 : FVec F S27x32x32 .f32 := broadcastInDim S27x32x32 ![] bcast_S_S27x32x32 main_cst_0
  let main_v6 : IVec S27x32x32 1 := cmpf .olt main_v4 main_v5
  let main_c_1 : IVec S_ 1 := constantI S_ 1 1#1
  let main_v7 : IVec S_ 1 := (fun x v => Host.reduce IntOp.andi x v reducesTo_S27x32x32_S_d0_1_2 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  main_v13
-- ==== Kernel.lean ====
abbrev S262144x32 : Shape := ⟨2, ![262144, 32]⟩
abbrev S27x32x32 : Shape := ⟨3, ![27, 32, 32]⟩
abbrev S1x32 : Shape := ⟨2, ![1, 32]⟩
abbrev S27x131072 : Shape := ⟨2, ![27, 131072]⟩
abbrev S_ : Shape := ⟨0, ![]⟩
abbrev S27x131072x1 : Shape := ⟨3, ![27, 131072, 1]⟩
abbrev S27x131072x32 : Shape := ⟨3, ![27, 131072, 32]⟩
abbrev S1x16384x32 : Shape := ⟨3, ![1, 16384, 32]⟩
abbrev S1x32x32 : Shape := ⟨3, ![1, 32, 32]⟩
abbrev S16384x32 : Shape := ⟨2, ![16384, 32]⟩
abbrev S32x32 : Shape := ⟨2, ![32, 32]⟩
abbrev S3538944 : Shape := ⟨1, ![3538944]⟩
abbrev S3538944x32 : Shape := ⟨2, ![3538944, 32]⟩
abbrev S3538944x1 : Shape := ⟨2, ![3538944, 1]⟩

abbrev nBuf : Space → Nat
  | .hbm => 30
  | .vmem => 6
  | .smem => 0
  | _ => 0

abbrev bufTy : (tb : Table) → Fin (tcTables nBuf tb) → BufTy
  | .hbm, ⟨0, _⟩ => ⟨S262144x32, .f32⟩
  | .hbm, ⟨1, _⟩ => ⟨S27x32x32, .f32⟩
  | .hbm, ⟨2, _⟩ => ⟨S1x32, .f32⟩
  | .hbm, ⟨3, _⟩ => ⟨S27x131072, .i32⟩
  | .hbm, ⟨4, _⟩ => ⟨S27x131072, .i32⟩
  | .hbm, ⟨5, _⟩ => ⟨S_, .i32⟩
  | .hbm, ⟨6, _⟩ => ⟨S27x131072, .i32⟩
  | .hbm, ⟨7, _⟩ => ⟨S27x131072, .i1⟩
  | .hbm, ⟨8, _⟩ => ⟨S_, .i32⟩
  | .hbm, ⟨9, _⟩ => ⟨S27x131072, .i32⟩
  | .hbm, ⟨10, _⟩ => ⟨S27x131072, .i32⟩
  | .hbm, ⟨11, _⟩ => ⟨S27x131072, .i32⟩
  | .hbm, ⟨12, _⟩ => ⟨S27x131072x1, .i32⟩
  | .hbm, ⟨13, _⟩ => ⟨S27x131072x32, .f32⟩
  | .hbm, ⟨14, _⟩ => ⟨S27x131072x32, .f32⟩
  | .hbm, ⟨15, _⟩ => ⟨S_, .f32⟩
  | .hbm, ⟨16, _⟩ => ⟨S262144x32, .f32⟩
  | .hbm, ⟨17, _⟩ => ⟨S3538944, .i32⟩
  | .hbm, ⟨18, _⟩ => ⟨S3538944x32, .f32⟩
  | .hbm, ⟨19, _⟩ => ⟨S_, .i32⟩
  | .hbm, ⟨20, _⟩ => ⟨S3538944, .i32⟩
  | .hbm, ⟨21, _⟩ => ⟨S3538944, .i1⟩
  | .hbm, ⟨22, _⟩ => ⟨S_, .i32⟩
  | .hbm, ⟨23, _⟩ => ⟨S3538944, .i32⟩
  | .hbm, ⟨24, _⟩ => ⟨S3538944, .i32⟩
  | .hbm, ⟨25, _⟩ => ⟨S3538944, .i32⟩
  | .hbm, ⟨26, _⟩ => ⟨S3538944x1, .i32⟩
  | .hbm, ⟨27, _⟩ => ⟨S262144x32, .f32⟩
  | .hbm, ⟨28, _⟩ => ⟨S262144x32, .f32⟩
  | .hbm, ⟨29, _⟩ => ⟨S262144x32, .f32⟩
  | .local _ .vmem, ⟨0, _⟩ => ⟨S1x16384x32, .f32⟩
  | .local _ .vmem, ⟨1, _⟩ => ⟨S1x16384x32, .f32⟩
  | .local _ .vmem, ⟨2, _⟩ => ⟨S1x32x32, .f32⟩
  | .local _ .vmem, ⟨3, _⟩ => ⟨S1x32x32, .f32⟩
  | .local _ .vmem, ⟨4, _⟩ => ⟨S1x16384x32, .f32⟩
  | .local _ .vmem, ⟨5, _⟩ => ⟨S1x16384x32, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S27x131072 : S_.BroadcastsInDim S27x131072 (![] : Fin 0 → Fin S27x131072.rank)
  bcast_S27x131072_S27x131072x1_0_1 : S27x131072.BroadcastsInDim S27x131072x1 (![0, 1] : Fin 2 → Fin S27x131072x1.rank)
  inb_S1x16384x32_S1x16384x32_0_0_0 : ∀ a, (![0, 0, 0] : Fin 3 → Nat) a + S1x16384x32.size a ≤ S1x16384x32.size a
  h_S1x16384x32 : 0 < S1x16384x32.numel
  shapeCasts_S1x16384x32_S16384x32 : S1x16384x32.ShapeCasts S16384x32
  bitsLt_bf16_f32 : FTy.bits .bf16 < FTy.bits .f32
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  shapeCasts_S16384x32_S1x16384x32 : S16384x32.ShapeCasts S1x16384x32
  bcast_S_S262144x32 : S_.BroadcastsInDim S262144x32 (![] : Fin 0 → Fin S262144x32.rank)
  shapeCasts_S27x131072_S3538944 : S27x131072.ShapeCasts S3538944
  shapeCasts_S27x131072x32_S3538944x32 : S27x131072x32.ShapeCasts S3538944x32
  bcast_S_S3538944 : S_.BroadcastsInDim S3538944 (![] : Fin 0 → Fin S3538944.rank)
  bcast_S3538944_S3538944x1_0 : S3538944.BroadcastsInDim S3538944x1 (![0] : Fin 1 → Fin S3538944x1.rank)
  bcast_S1x32_S262144x32_0_1 : S1x32.BroadcastsInDim S262144x32 (![0, 1] : Fin 2 → Fin S262144x32.rank)
  gather_S262144x32_S27x131072x1_S27x131072x32_2_0_n_n_0_2_132_wf : GatherDims.WF S262144x32 S27x131072x1 S27x131072x32 [2] [0] [] [0] [] 2 ![1, 32]
  dot_S16384x32_S32x32_S16384x32_1_0_0_1_n_n_wf : DotDims.WF S16384x32 S32x32 S16384x32 [1] [0] [0] [1] [] []
  scatter_S262144x32_S3538944x1_S3538944x32_1_0_0_1_wf : ScatterDims.WF S262144x32 S3538944x1 S3538944x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x32.size a ≤ S27x131072x32.size a
  hwx0_0 : ∀ i : grid0.Coords, EltTy.bits .f32 = 32 ∨ (Rect.block (s := S27x131072x32) S1x16384x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32.size a ≤ S27x32x32.size a
  hwx0_1 : ∀ i : grid0.Coords, EltTy.bits .f32 = 32 ∨ (Rect.block (s := S27x32x32) S1x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384x32.size a ≤ S27x131072x32.size a
  hwx0_2 : ∀ i : grid0.Coords, EltTy.bits .f32 = 32 ∨ (Rect.block (s := S27x131072x32) S1x16384x32.size (cc0_transform_2 i) (hinb0_2 i)).WholeWords (EltTy.packing .f32)

variable [Facts₀]

def gather_S262144x32_S27x131072x1_S27x131072x32_2_0_n_n_0_2_132 : GatherDims S262144x32 S27x131072x1 S27x131072x32 where
  offsetDims := [2]
  collapsedSliceDims := [0]
  operandBatchingDims := []
  startIndicesBatchingDims := []
  startIndexMap := [0]
  indexVectorDim := 2
  sliceSizes := ![1, 32]
  wf := gather_S262144x32_S27x131072x1_S27x131072x32_2_0_n_n_0_2_132_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def scatter_S262144x32_S3538944x1_S3538944x32_1_0_0_1 : ScatterDims S262144x32 S3538944x1 S3538944x32 where
  updateWindowDims := [1]
  insertedWindowDims := [0]
  scatterDimsToOperandDims := [0]
  indexVectorDim := 1
  wf := scatter_S262144x32_S3538944x1_S3538944x32_1_0_0_1_wf

abbrev win0_0 : Pipeline.Window sig grid0 :=
  Pipeline.Window.ofSpec (Memref.whole main_v6) S1x16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x16384x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x32 : Shape := ⟨2, ![262144, 32]⟩
abbrev S27x32x32 : Shape := ⟨3, ![27, 32, 32]⟩
abbrev S1x32 : Shape := ⟨2, ![1, 32]⟩
abbrev S27x131072 : Shape := ⟨2, ![27, 131072]⟩
abbrev S_ : Shape := ⟨0, ![]⟩
abbrev S27x131072x1 : Shape := ⟨3, ![27, 131072, 1]⟩
abbrev S27x131072x32 : Shape := ⟨3, ![27, 131072, 32]⟩
abbrev S3538944 : Shape := ⟨1, ![3538944]⟩
abbrev S3538944x32 : Shape := ⟨2, ![3538944, 32]⟩
abbrev S3538944x1 : Shape := ⟨2, ![3538944, 1]⟩

abbrev nBuf : Space → Nat
  | .hbm => 30
  | .vmem => 0
  | .smem => 0
  | _ => 0

abbrev bufTy : (tb : Table) → Fin (tcTables nBuf tb) → BufTy
  | .hbm, ⟨0, _⟩ => ⟨S262144x32, .f32⟩
  | .hbm, ⟨1, _⟩ => ⟨S27x32x32, .f32⟩
  | .hbm, ⟨2, _⟩ => ⟨S1x32, .f32⟩
  | .hbm, ⟨3, _⟩ => ⟨S27x131072, .i32⟩
  | .hbm, ⟨4, _⟩ => ⟨S27x131072, .i32⟩
  | .hbm, ⟨5, _⟩ => ⟨S_, .i32⟩
  | .hbm, ⟨6, _⟩ => ⟨S27x131072, .i32⟩
  | .hbm, ⟨7, _⟩ => ⟨S27x131072, .i1⟩
  | .hbm, ⟨8, _⟩ => ⟨S_, .i32⟩
  | .hbm, ⟨9, _⟩ => ⟨S27x131072, .i32⟩
  | .hbm, ⟨10, _⟩ => ⟨S27x131072, .i32⟩
  | .hbm, ⟨11, _⟩ => ⟨S27x131072, .i32⟩
  | .hbm, ⟨12, _⟩ => ⟨S27x131072x1, .i32⟩
  | .hbm, ⟨13, _⟩ => ⟨S27x131072x32, .f32⟩
  | .hbm, ⟨14, _⟩ => ⟨S27x131072x32, .f32⟩
  | .hbm, ⟨15, _⟩ => ⟨S_, .f32⟩
  | .hbm, ⟨16, _⟩ => ⟨S262144x32, .f32⟩
  | .hbm, ⟨17, _⟩ => ⟨S3538944, .i32⟩
  | .hbm, ⟨18, _⟩ => ⟨S3538944x32, .f32⟩
  | .hbm, ⟨19, _⟩ => ⟨S_, .i32⟩
  | .hbm, ⟨20, _⟩ => ⟨S3538944, .i32⟩
  | .hbm, ⟨21, _⟩ => ⟨S3538944, .i1⟩
  | .hbm, ⟨22, _⟩ => ⟨S_, .i32⟩
  | .hbm, ⟨23, _⟩ => ⟨S3538944, .i32⟩
  | .hbm, ⟨24, _⟩ => ⟨S3538944, .i32⟩
  | .hbm, ⟨25, _⟩ => ⟨S3538944, .i32⟩
  | .hbm, ⟨26, _⟩ => ⟨S3538944x1, .i32⟩
  | .hbm, ⟨27, _⟩ => ⟨S262144x32, .f32⟩
  | .hbm, ⟨28, _⟩ => ⟨S262144x32, .f32⟩
  | .hbm, ⟨29, _⟩ => ⟨S262144x32, .f32⟩
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S27x131072 : S_.BroadcastsInDim S27x131072 (![] : Fin 0 → Fin S27x131072.rank)
  bcast_S27x131072_S27x131072x1_0_1 : S27x131072.BroadcastsInDim S27x131072x1 (![0, 1] : Fin 2 → Fin S27x131072x1.rank)
  bcast_S_S262144x32 : S_.BroadcastsInDim S262144x32 (![] : Fin 0 → Fin S262144x32.rank)
  shapeCasts_S27x131072_S3538944 : S27x131072.ShapeCasts S3538944
  shapeCasts_S27x131072x32_S3538944x32 : S27x131072x32.ShapeCasts S3538944x32
  bcast_S_S3538944 : S_.BroadcastsInDim S3538944 (![] : Fin 0 → Fin S3538944.rank)
  bcast_S3538944_S3538944x1_0 : S3538944.BroadcastsInDim S3538944x1 (![0] : Fin 1 → Fin S3538944x1.rank)
  bcast_S1x32_S262144x32_0_1 : S1x32.BroadcastsInDim S262144x32 (![0, 1] : Fin 2 → Fin S262144x32.rank)
  gather_S262144x32_S27x131072x1_S27x131072x32_2_0_n_n_0_2_132_wf : GatherDims.WF S262144x32 S27x131072x1 S27x131072x32 [2] [0] [] [0] [] 2 ![1, 32]
  dot_S27x131072x32_S27x32x32_S27x131072x32_2_1_1_2_0_0_wf : DotDims.WF S27x131072x32 S27x32x32 S27x131072x32 [2] [1] [1] [2] [0] [0]
  scatter_S262144x32_S3538944x1_S3538944x32_1_0_0_1_wf : ScatterDims.WF S262144x32 S3538944x1 S3538944x32 [1] [0] [0] 1

variable [Facts₀]

def gather_S262144x32_S27x131072x1_S27x131072x32_2_0_n_n_0_2_132 : GatherDims S262144x32 S27x131072x1 S27x131072x32 where
  offsetDims := [2]
  collapsedSliceDims := [0]
  operandBatchingDims := []
  startIndicesBatchingDims := []
  startIndexMap := [0]
  indexVectorDim := 2
  sliceSizes := ![1, 32]
  wf := gather_S262144x32_S27x131072x1_S27x131072x32_2_0_n_n_0_2_132_wf
def dot_S27x131072x32_S27x32x32_S27x131072x32_2_1_1_2_0_0 : DotDims S27x131072x32 S27x32x32 S27x131072x32 where
  lhsContracting := [2]
  rhsContracting := [1]
  lhsNonContracting := [1]
  rhsNonContracting := [2]
  lhsBatch := [0]
  rhsBatch := [0]
  wf := dot_S27x131072x32_S27x32x32_S27x131072x32_2_1_1_2_0_0_wf
def scatter_S262144x32_S3538944x1_S3538944x32_1_0_0_1 : ScatterDims S262144x32 S3538944x1 S3538944x32 where
  updateWindowDims := [1]
  insertedWindowDims := [0]
  scatterDimsToOperandDims := [0]
  indexVectorDim := 1
  wf := scatter_S262144x32_S3538944x1_S3538944x32_1_0_0_1_wf

class Facts : Prop extends Facts₀ where

variable [Facts]
-- ==== Proof.OffsetProduct.lean ====
/-
  The contributions of a sparse convolution, as one function of the gathered features and the weights.

  A sparse convolution over 27 kernel offsets pairs, for each offset k, 131072 neighbour pairs; pair m of offset k
  carries a gathered row of 32 input channels, g(k, m, ·), and offset k has its own 32 × 32 weight matrix w(k, ·, ·).
  The contribution of pair m of offset k to output channel o is
      contrib(k, m, o) = Σ_{i < 32} g(k, m, i) · w(k, i, o),
  one 131072 × 32 by 32 × 32 matrix product per offset. Over the extended reals this is a finite sum of products and
  nothing else: no rounding, no order of accumulation, no tiling of the 131072 pairs is left in it.
  This file states that function over literal shapes and names its entry at coordinates (k, m, o). It imports no program.
-/
import Idealize.ShloMosaic.PureOps.Ideal.Laws
import Idealize.ShloMosaic.Lib.ValueIdx

noncomputable section

namespace Cert.SparseConv

open Idealize.ShloMosaic Idealize.ShloMosaic.ValueIdx

/-- The per-offset products: entry (k, m, o) is the sum over the 32 input channels i of g(k, m, i) · w(k, i, o). -/
def offsetProduct (g : FVec Ideal ⟨3, ![27, 131072, 32]⟩ .f32) (w : FVec Ideal ⟨3, ![27, 32, 32]⟩ .f32) :
    FVec Ideal ⟨3, ![27, 131072, 32]⟩ .f32 :=
  fun j => ∑ i : Fin 32, g (ix3 (n0 := 27) (n1 := 131072) (n2 := 32) (j 0) (j 1) i)
    * w (ix3 (n0 := 27) (n1 := 32) (n2 := 32) (j 0) i (j 2))

/-- Its entry at coordinates (k, m, o). -/
theorem offsetProduct_apply (g : FVec Ideal ⟨3, ![27, 131072, 32]⟩ .f32) (w : FVec Ideal ⟨3, ![27, 32, 32]⟩ .f32)
    (k : Fin 27) (m : Fin 131072) (o : Fin 32) :
    offsetProduct g w (ix3 k m o) = ∑ i : Fin 32, g (ix3 k m i) * w (ix3 k i o) := rfl

end Cert.SparseConv

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.BlockProduct.lean ====
/-
  What the kernel body computes from one block of gathered rows and one weight matrix.

  At a grid point the body holds a block of 16384 gathered rows of one offset, x0 : [1, 16384, 32], and that offset's
  weight matrix, x1 : [1, 32, 32]. It drops the leading unit axis of both, changes their format to bf16 (at the ideal
  values a change of format is the identity), multiplies the 16384 × 32 matrix by the 32 × 32 matrix into an all-zero
  accumulator, and puts the unit axis back. So the stored block has, at row r and output channel o,
      Σ_{i < 32} x0(0, r, i) · x1(0, i, o):
  the product into the zero accumulator is that sum, and each cast reads the entry with the same row-major position,
  (0·16384 + r)·32 + i = r·32 + i.
-/
import proofs.«110826_j69097433858537_2_alg».proof.Proof.Gen.KernelIdeal.Skeleton
import proofs.«110826_j69097433858537_2_alg».proof.Proof.LibMatmulZero
import Idealize.ShloMosaic.Lib.Pipeline.Value
import Idealize.ShloMosaic.Lib.ValueIdx
import Idealize.ShloMosaic.PureOps.Ideal.Laws

noncomputable section

namespace Cert.SparseConv

open Cert.KernelIdeal Cert.KernelIdeal.Gen Idealize.ShloMosaic Idealize.ShloMosaic.ValueIdx

/-- The result's row coordinate is the left operand's row coordinate. -/
theorem gemm_lhs_row (i : S16384x32.Idx) (c : dot_S16384x32_S32x32_S16384x32_1_0_0_1_n_n.contr.Idx) :
    (dot_S16384x32_S32x32_S16384x32_1_0_0_1_n_n.lhsIdx i c 0).val = (i 0).val := by
  unfold DotDims.lhsIdx
  rw [dif_neg (show ¬(0 : Fin _) ∈ dot_S16384x32_S32x32_S16384x32_1_0_0_1_n_n.lhsBatch by decide),
    dif_pos (show (0 : Fin _) ∈ dot_S16384x32_S32x32_S16384x32_1_0_0_1_n_n.lhsNonContracting by decide)]
  rfl

/-- The result's column coordinate is the right operand's column coordinate. -/
theorem gemm_rhs_col (i : S16384x32.Idx) (c : dot_S16384x32_S32x32_S16384x32_1_0_0_1_n_n.contr.Idx) :
    (dot_S16384x32_S32x32_S16384x32_1_0_0_1_n_n.rhsIdx i c 1).val = (i 1).val := by
  unfold DotDims.rhsIdx
  rw [dif_neg (show ¬(1 : Fin _) ∈ dot_S16384x32_S32x32_S16384x32_1_0_0_1_n_n.rhsBatch by decide),
    dif_pos (show (1 : Fin _) ∈ dot_S16384x32_S32x32_S16384x32_1_0_0_1_n_n.rhsNonContracting by decide)]
  rfl

/-- The stored block at (u, r, o), u the unit coordinate: the sum over the 32 input channels i of x0(0, r, i) · x1(0, i, o). -/
theorem blockProduct (x0 : FVec Ideal S1x16384x32 .f32) (x1 : FVec Ideal S1x32x32 .f32)
    (u : Fin 1) (r : Fin 16384) (o : Fin 32) :
    k0_pay1 (F := Ideal) x0 x1 (ix3 u r o) = ∑ i : Fin 32, x0 (ix3 0 r i) * x1 (ix3 0 i o) := by
  unfold k0_pay1
  -- the unit axis put back: same row-major position
  refine (shapeCast_apply _ shapeCasts_S16384x32_S1x16384x32 (ix3 u r o) (ix2 r o) ?_).trans ?_
  · rw [Shape.rowMajor_val_two, Shape.rowMajor_val_three]
    have hu := u.isLt
    show r.val * 32 + o.val = (u.val * 16384 + r.val) * 32 + o.val
    omega
  -- the product into the zero accumulator is the sum over the contracted channel
  refine (Cert.LibMatmulZero.matmul_zero_ix2 dot_S16384x32_S32x32_S16384x32_1_0_0_1_n_n rfl rfl rfl rfl
    gemm_lhs_row gemm_rhs_col none _ _ r o).trans ?_
  refine Finset.sum_congr rfl fun i _ => ?_
  -- a change of format is the identity; the unit axis dropped: same row-major position
  show shapeCast S16384x32 x0 shapeCasts_S1x16384x32_S16384x32 (ix2 r i)
      * shapeCast S32x32 x1 shapeCasts_S1x32x32_S32x32 (ix2 i o) = _
  rw [shapeCast_apply x0 shapeCasts_S1x16384x32_S16384x32 (ix2 r i) (ix3 0 r i) (by
        rw [Shape.rowMajor_val_two, Shape.rowMajor_val_three]
        show ((0 : Fin 1).val * 16384 + r.val) * 32 + i.val = r.val * 32 + i.val
        simp),
    shapeCast_apply x1 shapeCasts_S1x32x32_S32x32 (ix2 i o) (ix3 0 i o) (by
        rw [Shape.rowMajor_val_two, Shape.rowMajor_val_three]
        show ((0 : Fin 1).val * 32 + i.val) * 32 + o.val = i.val * 32 + o.val
        simp)]

end Cert.SparseConv

end
-- ==== Proof.Contributions.lean ====
/-
  The array the kernel leaves: the contributions of every offset, tile by tile.

  The grid has 27 × 8 points. Point (k, q) reads rows 16384·q … 16384·q + 16383 of offset k's gathered features and
  offset k's weight matrix, and writes back the same rows of offset k's contributions. By `blockProduct` the block it
  writes has, at row r and channel o, Σ_i gathered(k, 16384·q + r, i) · w(k, i, o), which is the per-offset product
  `offsetProduct` read at (k, 16384·q + r, o): every written block is a block of that ONE function of the two arrays.
  A row m of offset k lies in the block of point (k, m / 16384), so the 216 blocks cover the [27, 131072, 32] array,
  and after the last write-back the array IS `offsetProduct` of the gathered features and the weights.
-/
import proofs.«110826_j69097433858537_2_alg».proof.Proof.Gen.KernelIdeal.Frame
import proofs.«110826_j69097433858537_2_alg».proof.Proof.OffsetProduct
import proofs.«110826_j69097433858537_2_alg».proof.Proof.BlockProduct
import Idealize.ShloMosaic.Lib.Pipeline.Value
import Idealize.ShloMosaic.Lib.ValueIdx

set_option maxRecDepth 16384

noncomputable section

namespace Cert.SparseConv

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem zero_offsets : (![0, 0, 0] : Fin 3 → Nat) = fun _ => 0 := funext fun a => by fin_cases a <;> rfl

/-- Where the three windows' blocks sit at a grid point, decided over the 216 points: the gathered rows and the written
    rows are the same tile of the same offset, the weight matrix is that offset's, whole. -/
theorem tile_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0 :=
  (by decide +kernel : ∀ t : Fin grid0.N, _)

/-- Every (offset, tile) pair is some point's. -/
theorem tile_onto : ∀ (k : Fin 27) (q : Fin 8), ∃ t : Fin cfg0.N, win0_2.index t = ![k.val, q.val, 0] :=
  (by decide +kernel : ∀ (k : Fin 27) (q : Fin 8), ∃ t : Fin grid0.N, win0_2.index t = ![k.val, q.val, 0])

/-- What point `t` writes back is block `t` of the per-offset product of the gathered features and the weights. -/
theorem written_block (c : Dev nD) (t : Fin cfg0.N) :
    (dats m 0 c).flushed 2 t
      = ((cfg0.win 2).blk t).view.read (Elt Ideal) (offsetProduct (V m c main_v6) (V m c main_arg1)) := by
  show (cfg0.win 2).cut (grid0.coords t) ((dats m 0 c).after 2 t) = _
  rw [after0_2]
  unfold out0_2
  rw [View.canon_unit_zero zero_offsets]
  simp only [View.ld_unit_zero (S := S1x16384x32) zero_offsets, View.ld_unit_zero (S := S1x32x32) zero_offsets]
  obtain ⟨e0, e1, e2, e3, e4, e5, e6⟩ := tile_facts t
  funext j
  obtain ⟨u, r, o, rfl⟩ : ∃ (u : Fin 1) (r : Fin 16384) (o : Fin 32), j = ix3 u r o := ⟨j 0, j 1, j 2, eq_ix3 j⟩
  refine (blockProduct (iblk m c 0 t) (iblk m c 1 t) u r o).trans ?_
  have hu := u.isLt
  -- the same identity over any two arrays A, B of the literal shapes: the rows read are the rows written
  have key : ∀ (A : FVec Ideal S27x131072x32 .f32) (B : FVec Ideal S27x32x32 .f32),
      (∑ i : Fin 32, A (((cfg0.win 0).blk t).view.emb (ix3 0 r i)) * B (((cfg0.win 1).blk t).view.emb (ix3 0 i o)))
        = offsetProduct A B (((cfg0.win 2).blk t).view.emb (ix3 u r o)) := by
    intro A B
    show _ = ∑ i : Fin 32,
        A (ix3 (n0 := 27) (n1 := 131072) (n2 := 32) ((((cfg0.win 2).blk t).view.emb (ix3 u r o)) 0)
            ((((cfg0.win 2).blk t).view.emb (ix3 u r o)) 1) i)
          * B (ix3 (n0 := 27) (n1 := 32) (n2 := 32) ((((cfg0.win 2).blk t).view.emb (ix3 u r o)) 0) i
            ((((cfg0.win 2).blk t).view.emb (ix3 u r o)) 2))
    refine Finset.sum_congr rfl fun i _ => ?_
    have h0 : ((cfg0.win 0).blk t).view.emb (ix3 0 r i)
        = ix3 (n0 := 27) (n1 := 131072) (n2 := 32) ((((cfg0.win 2).blk t).view.emb (ix3 u r o)) 0)
            ((((cfg0.win 2).blk t).view.emb (ix3 u r o)) 1) i := by
      funext a; apply Fin.ext
      match a with
      | ⟨0, _⟩ => show win0_0.index t (0 : Fin 3) * 1 + 1 * (0 : Fin 1).val = win0_2.index t (0 : Fin 3) * 1 + 1 * u.val; simp only [Fin.val_zero]; omega
      | ⟨1, _⟩ => show win0_0.index t (1 : Fin 3) * 16384 + 1 * r.val = win0_2.index t (1 : Fin 3) * 16384 + 1 * r.val; omega
      | ⟨2, _⟩ => show win0_0.index t (2 : Fin 3) * 32 + 1 * i.val = i.val; omega
    have h1 : ((cfg0.win 1).blk t).view.emb (ix3 0 i o)
        = ix3 (n0 := 27) (n1 := 32) (n2 := 32) ((((cfg0.win 2).blk t).view.emb (ix3 u r o)) 0) i
            ((((cfg0.win 2).blk t).view.emb (ix3 u r o)) 2) := by
      funext a; apply Fin.ext
      match a with
      | ⟨0, _⟩ => show win0_1.index t (0 : Fin 3) * 1 + 1 * (0 : Fin 1).val = win0_2.index t (0 : Fin 3) * 1 + 1 * u.val; simp only [Fin.val_zero]; omega
      | ⟨1, _⟩ => show win0_1.index t (1 : Fin 3) * 32 + 1 * i.val = i.val; omega
      | ⟨2, _⟩ => show win0_1.index t (2 : Fin 3) * 32 + 1 * o.val = win0_2.index t (2 : Fin 3) * 32 + 1 * o.val; omega
    rw [h0, h1]
  exact key (V m c main_v6) (V m c main_arg1)

/-- An index of the array is in point `t`'s block iff each coordinate is in the block's range on its axis. -/
theorem mem_tile (t : Fin cfg0.N) (i : S27x131072x32.Idx) :
    i ∈ ((cfg0.win 2).blk t).view.set ↔ ∀ a : Fin 3, win0_2.index t a * S1x16384x32.size a ≤ (i a).val
      ∧ (i a).val < win0_2.index t a * S1x16384x32.size a + S1x16384x32.size a := by
  show i ∈ ((View.whole main_v7).slice (win0_2.rect t)).set ↔ _
  rw [View.set_slice_whole, Rect.mem_set_unit]
  exact Iff.rfl

/-- Row m of offset k is written by the point of offset k and tile m / 16384: the blocks cover the array. -/
theorem tiles_cover (i : S27x131072x32.Idx) :
    ∃ t : Fin cfg0.N, (cfg0.win 2).flush t = true ∧ i ∈ ((cfg0.win 2).blk t).view.set := by
  have hi0 : (i 0).val < 27 := (i 0).isLt
  have hi1 : (i 1).val < 131072 := (i 1).isLt
  have hi2 : (i 2).val < 32 := (i 2).isLt
  obtain ⟨t, ht⟩ := tile_onto ⟨(i 0).val, hi0⟩ ⟨(i 1).val / 16384, by omega⟩
  have q0 : win0_2.index t (0 : Fin 3) = (i 0).val := congrFun ht 0
  have q1 : win0_2.index t (1 : Fin 3) = (i 1).val / 16384 := congrFun ht 1
  have q2 : win0_2.index t (2 : Fin 3) = 0 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 16384 ≤ (i 1).val ∧ (i 1).val < win0_2.index t (1 : Fin 3) * 16384 + 16384; omega
  | ⟨2, _⟩ => show win0_2.index t (2 : Fin 3) * 32 ≤ (i 2).val ∧ (i 2).val < win0_2.index t (2 : Fin 3) * 32 + 32; omega

/-- After the last write-back the kernel's output array is the per-offset product of the gathered features, as the
    region found them, and the weights. -/
theorem contributions (c : Dev nD) :
    (dats m 0 c).arrAt 2 cfg0.N = offsetProduct (V m c main_v6) (V m c main_arg1) :=
  (dats m 0 c).arrAt_eq_of_cover 2 _ (fun t _ => written_block m c t) tiles_cover

end Cert.SparseConv

end
-- ==== Proof.ScatterBias.lean ====
/-
  The two ends of a sparse convolution: gathering the input rows, and scatter-adding the contributions plus the bias.

  BEFORE the per-offset products, pair m of offset k takes the input row named by the input map's entry (k, m) — a
  negative entry counted from the end of the 262144 input rows —: the [27, 131072, 32] gathered features.
  AFTER them:

  The [27, 131072, 32] contributions are laid out as 27·131072 = 3538944 rows of 32 channels; row (k, m) is added into
  the output row named by the output map's entry (k, m) — a negative entry counted from the end of the 262144 output
  rows — starting from the all-zero [262144, 32] table, and the bias row is then added to every output row.
  Both programs apply exactly these operations around their per-offset products, so each end is carried here as ONE
  function of its arrays and is never opened: equal contributions of equal gathered rows give equal results.
-/
import proofs.«110826_j69097433858537_2_alg».proof.Proof.Gen.KernelIdeal
import Idealize.ShloMosaic.PureOps.Ideal.Laws

noncomputable section

namespace Cert.SparseConv

open Cert.KernelIdeal Cert.KernelIdeal.Facts₀ Idealize.ShloMosaic

/-- The gathered features: row (k, m) is the input row the input map's entry (k, m) names. -/
def gatheredRows (x : (⟨S262144x32, .f32⟩ : BufTy).Contents (Elt Ideal)) (imap : (⟨S27x131072, .i32⟩ : BufTy).Contents (Elt Ideal)) :
    (⟨S27x131072x32, .f32⟩ : BufTy).Contents (Elt Ideal) :=
  Host.gather gather_S262144x32_S27x131072x1_S27x131072x32_2_0_n_n_0_2_132 x
    (broadcastInDim S27x131072x1 ![0, 1] bcast_S27x131072_S27x131072x1_0_1
      (select (cmpi .slt imap (broadcastInDim S27x131072 ![] bcast_S_S27x131072 (constantI S_ 32 0#32)))
        (addi imap (broadcastInDim S27x131072 ![] bcast_S_S27x131072 (constantI S_ 32 262144#32)))
        imap))

/-- The contributions scattered and added into the zero table at the output map's rows, plus the bias row. -/
def scatterBias (y : (⟨S27x131072x32, .f32⟩ : BufTy).Contents (Elt Ideal)) (bias : (⟨S1x32, .f32⟩ : BufTy).Contents (Elt Ideal))
    (omap : (⟨S27x131072, .i32⟩ : BufTy).Contents (Elt Ideal)) : (⟨S262144x32, .f32⟩ : BufTy).Contents (Elt Ideal) :=
  addf (F := Ideal)
    (Host.scatterAdd (F := Ideal) scatter_S262144x32_S3538944x1_S3538944x32_1_0_0_1
      (broadcastInDim S262144x32 ![] bcast_S_S262144x32 (constant (F := Ideal) S_ .f32 0x00000000#32))
      (broadcastInDim S3538944x1 ![0] bcast_S3538944_S3538944x1_0
        (select (cmpi .slt (shapeCast _ omap shapeCasts_S27x131072_S3538944) (broadcastInDim S3538944 ![] bcast_S_S3538944 (constantI S_ 32 0#32)))
          (addi (shapeCast _ omap shapeCasts_S27x131072_S3538944) (broadcastInDim S3538944 ![] bcast_S_S3538944 (constantI S_ 32 262144#32)))
          (shapeCast _ omap shapeCasts_S27x131072_S3538944)))
      (shapeCast _ y shapeCasts_S27x131072x32_S3538944x32))
    (broadcastInDim S262144x32 ![0, 1] bcast_S1x32_S262144x32_0_1 bias)

end Cert.SparseConv

end
-- ==== Proof.KernelResult.lean ====
/-
  The kernel program's result as a function of its arguments.

  Before the region the program gathers the input rows (`gatheredRows` of the input and the input map: the nine host
  operations before the region compose to exactly that term of the launch arrays). The region leaves, in its output
  array, the per-offset products of those gathered rows and the weights (`contributions`). The fifteen host operations
  after the region then read that array, the output map and the bias, none of which they or the region changed, and
  compose to `scatterBias`. So the program ends with its result at
      scatterBias (offsetProduct (gatheredRows input in_map) weights) bias out_map,
  and with its five argument arrays as launched.
-/
import proofs.«110826_j69097433858537_2_alg».proof.Proof.Gen.KernelIdeal.Frame
import proofs.«110826_j69097433858537_2_alg».proof.Proof.Contributions
import proofs.«110826_j69097433858537_2_alg».proof.Proof.ScatterBias
import Idealize.ShloMosaic.Lib.StableHlo.Run

set_option maxRecDepth 16384

noncomputable section

namespace Cert.SparseConv

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg)

/-- The region finds, in its first operand's array, the gathered rows of the launch arrays. -/
theorem entry_gathered (c : Dev nD) :
    (V m c main_v6 : (⟨S27x131072x32, .f32⟩ : BufTy).Contents (Elt Ideal))
      = gatheredRows (m ((c : Thread nD τ).loc main_arg0)) (m ((c : Thread nD τ).loc main_arg3)) := by
  show StableHlo.after hostOps0 (fun b => m (c, b)) (Proc.devRef .tc main_v6) = _
  after_results
  rfl

/-- The region's output array after the run, in the launch arrays. -/
theorem contributions_of_args (c : Dev nD) :
    (dats m 0 c).arrAt 2 cfg0.N
      = offsetProduct (gatheredRows (m ((c : Thread nD τ).loc main_arg0)) (m ((c : Thread nD τ).loc main_arg3)))
          (m ((c : Thread nD τ).loc main_arg1)) :=
  (contributions m c).trans (congrArg₂ offsetProduct (entry_gathered m c) (V_main_arg1 m c))

/-- What the host operations after the region leave in the program's result. -/
theorem result_after_tail (c : Dev nD) :
    Pipeline.afterTail₀ cfgs (dats m) 0 (V0 m) [hostOps1] c main_v19
      = scatterBias
          (offsetProduct (gatheredRows (m ((c : Thread nD τ).loc main_arg0)) (m ((c : Thread nD τ).loc main_arg3)))
            (m ((c : Thread nD τ).loc main_arg1)))
          (m ((c : Thread nD τ).loc main_arg2)) (m ((c : Thread nD τ).loc main_arg4)) := by
  -- the three buffers the tail reads, as the region left them
  have e7 : Pipeline.withArrays (cfgs 0).spec c (V0 m c) (fun w => (dats m 0 c).arrAt w (cfgs 0).N) (Proc.devRef .tc main_v7)
      = offsetProduct (gatheredRows (m ((c : Thread nD τ).loc main_arg0)) (m ((c : Thread nD τ).loc main_arg3)))
          (m ((c : Thread nD τ).loc main_arg1)) :=
    (Pipeline.withArrays_arr spec0 launch0.win.arr_inj c _ _ 2).trans (contributions_of_args m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  unfold Pipeline.afterTail₀
  show StableHlo.after hostOps1 _ (Proc.devRef .tc main_v19) = _
  after_results
  rw [e7, e4, e2]
  rfl

/-- Every weakly fair execution of the kernel program terminates with its result at the scatter-add, plus the bias, of
    the per-offset products of the gathered rows, and with its argument arrays unchanged. -/
theorem kernel_run : θ_run defs (onTc (τ := τ) (main (F := Ideal))) ⟨m, fun _ => 0, ρ⟩ fun r => ∀ c : Dev nD,
      r.2.mem ((c : Thread nD τ).loc main_v19)
        = scatterBias
            (offsetProduct (gatheredRows (m ((c : Thread nD τ).loc main_arg0)) (m ((c : Thread nD τ).loc main_arg3)))
              (m ((c : Thread nD τ).loc main_arg1)))
            (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v19 (Pipeline.mem_restRefs_of main_v19 (by decide) (by decide))).trans (result_after_tail m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.SparseConv

end
-- ==== Proof.ReferenceResult.lean ====
/-
  The reference program's result as the same function of its arguments.

  The reference computes the contributions by one batched product: entry (k, m, o) of its `dot_general`, batched over
  the offset k and contracting the 32 input channels, is Σ_{i < 32} gathered(k, m, i) · w(k, i, o) at the ideal values
  — the left operand read at (k, m, i), the right at (k, i, o) —, which is `offsetProduct` of its gathered rows and
  the weights, entry by entry. Its gathered rows are `gatheredRows` of its input and input map, and what it does with
  the contributions is `scatterBias`: the same operations of the same arrays as the kernel program's.
-/
import proofs.«110826_j69097433858537_2_alg».proof.Proof.Gen.ReferenceIdeal.Read
import proofs.«110826_j69097433858537_2_alg».proof.Proof.OffsetProduct
import proofs.«110826_j69097433858537_2_alg».proof.Proof.ScatterBias

noncomputable section

namespace Cert.SparseConv

open Cert.ReferenceIdeal Cert.ReferenceIdeal.Read Idealize.ShloMosaic Idealize.ShloMosaic.ValueIdx

/-- The reference's batched product is the per-offset product of its gathered rows and the weights. -/
theorem reference_product (x0 : (⟨S262144x32, .f32⟩ : BufTy).Contents (Elt Ideal)) (x1 : (⟨S27x32x32, .f32⟩ : BufTy).Contents (Elt Ideal))
    (x3 : (⟨S27x131072, .i32⟩ : BufTy).Contents (Elt Ideal)) :
    val_main_v7 (F := Ideal) x0 x1 x3 = offsetProduct (val_main_v6 (F := Ideal) x0 x3) x1 := by
  funext j
  rw [val_main_v7_apply]
  show _ = ∑ i : Fin 32, (val_main_v6 (F := Ideal) x0 x3) (ix3 (n0 := 27) (n1 := 131072) (n2 := 32) (j 0) (j 1) i)
      * x1 (ix3 (n0 := 27) (n1 := 32) (n2 := 32) (j 0) i (j 2))
  refine Finset.sum_congr rfl fun k _ => ?_
  have el : lidx_main_v7 j k = ix3 (n0 := 27) (n1 := 131072) (n2 := 32) (j 0) (j 1) k :=
    funext fun a => Fin.ext (by match a with | ⟨0, _⟩ => rfl | ⟨1, _⟩ => rfl | ⟨2, _⟩ => rfl)
  have er : ridx_main_v7 j k = ix3 (n0 := 27) (n1 := 32) (n2 := 32) (j 0) k (j 2) :=
    funext fun a => Fin.ext (by match a with | ⟨0, _⟩ => rfl | ⟨1, _⟩ => rfl | ⟨2, _⟩ => rfl)
  rw [el, er]

/-- The reference's result stage is the scatter-add, plus the bias, of the per-offset products of the gathered rows. -/
theorem reference_result (x0 : (⟨S262144x32, .f32⟩ : BufTy).Contents (Elt Ideal)) (x1 : (⟨S27x32x32, .f32⟩ : BufTy).Contents (Elt Ideal))
    (x2 : (⟨S1x32, .f32⟩ : BufTy).Contents (Elt Ideal)) (x3 x4 : (⟨S27x131072, .i32⟩ : BufTy).Contents (Elt Ideal)) :
    val_main_v19 (F := Ideal) x0 x1 x2 x3 x4 = scatterBias (offsetProduct (gatheredRows x0 x3) x1) x2 x4 := by
  have h : val_main_v19 (F := Ideal) x0 x1 x2 x3 x4 = scatterBias (val_main_v7 (F := Ideal) x0 x1 x3) x2 x4 := rfl
  rw [h, reference_product]
  rfl

end Cert.SparseConv

end
-- ==== Proof.lean ====
/-
  A sparse convolution against its reference, over the extended reals.

  Both programs gather, for each of the 27 kernel offsets, 131072 input rows of 32 channels; multiply each offset's
  gathered rows by that offset's 32 × 32 weight matrix; scatter-add the 27 · 131072 resulting rows into 262144 output
  rows starting from zero; and add the bias row. They differ in the middle step only. The kernel computes the products
  on a 27 × 8 grid, each point multiplying a tile of 16384 gathered rows by the offset's weight matrix after a change of
  format to bf16, into a zero accumulator; the reference computes them as one product batched over the offsets.
  At the ideal values a change of format is the identity and a matrix product is the plain sum of products, so both
  middle steps are the SAME function of the gathered rows and the weights,
      contrib(k, m, o) = Σ_{i < 32} gathered(k, m, i) · w(k, i, o)        (`offsetProduct`):
  the kernel's tiles are blocks of it that cover the array (`contributions`), and the reference's batched product is it
  entry by entry (`reference_product`). The gather before and the scatter-add and bias after are the same operations in
  both programs, carried as `gatheredRows` and `scatterBias` and never opened. Hence both programs end with their
  result at `scatterBias (offsetProduct (gatheredRows input in_map) weights) bias out_map` of arguments that agree.
  No law used here needs the inputs to be finite: the two sides are the same sums of the same products.
  The kernel program's idealization rewrites nothing, so what it preserves is stated as `True`.
-/
import proofs.«110826_j69097433858537_2_alg».proof.Defs
import proofs.«110826_j69097433858537_2_alg».proof.Proof.Gen.Kernel
import proofs.«110826_j69097433858537_2_alg».proof.Proof.Gen.Kernel.Skeleton
import proofs.«110826_j69097433858537_2_alg».proof.Proof.Gen.Kernel.Launch
import proofs.«110826_j69097433858537_2_alg».proof.Proof.Gen.Kernel.Points
import proofs.«110826_j69097433858537_2_alg».proof.Proof.Gen.Kernel.Frame
import proofs.«110826_j69097433858537_2_alg».proof.Proof.Gen.KernelIdeal
import proofs.«110826_j69097433858537_2_alg».proof.Proof.Gen.KernelIdeal.Skeleton
import proofs.«110826_j69097433858537_2_alg».proof.Proof.Gen.KernelIdeal.Launch
import proofs.«110826_j69097433858537_2_alg».proof.Proof.Gen.KernelIdeal.Points
import proofs.«110826_j69097433858537_2_alg».proof.Proof.Gen.KernelIdeal.Frame
import proofs.«110826_j69097433858537_2_alg».proof.Proof.Gen.ReferenceIdeal
import proofs.«110826_j69097433858537_2_alg».proof.Proof.Gen.Pre_finite_inputs
import proofs.«110826_j69097433858537_2_alg».proof.Proof.Gen.ReferenceIdeal.Run
import proofs.«110826_j69097433858537_2_alg».proof.Proof.Gen.ReferenceIdeal.Read
import proofs.«110826_j69097433858537_2_alg».proof.Proof.KernelResult
import proofs.«110826_j69097433858537_2_alg».proof.Proof.ReferenceResult
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program at the ideal values. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the scatter-add, plus the bias, of the
    per-offset products of the gathered rows. -/
theorem algebraic : Cert.algebraic_KernelIdeal_ReferenceIdeal := by
  intro m ρ m' ρ' _ hagree
  refine ⟨_, Cert.SparseConv.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.SparseConv.reference_result,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
